-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S1024x4096 .f32) (main_arg1 : FVec F S1024x4096 .f32) (main_arg2 : FVec F S1024x4096 .f32) (main_arg3 : FVec F S4096x4096 .f32) (main_arg4 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S1024x4096, .f32⟩
  | .hbm, ⟨7, _⟩ => ⟨S1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  natLt_1_32 : 1 < 32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x4096.size a
  hwx0_0 : ∀ i : grid0.Coords, EltTy.bits .f32 = 32 ∨ (Rect.block (s := S1024x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x4096.size a
  hwx0_2 : ∀ i : grid0.Coords, EltTy.bits .f32 = 32 ∨ (Rect.block (s := S1024x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x4096.size a
  hwx0_3 : ∀ i : grid0.Coords, EltTy.bits .f32 = 32 ∨ (Rect.block (s := S1024x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x4096.size a
  hwx0_5 : ∀ i : grid0.Coords, EltTy.bits .f32 = 32 ∨ (Rect.block (s := S1024x4096) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x4096.size a
  hwx0_6 : ∀ i : grid0.Coords, EltTy.bits .f32 = 32 ∨ (Rect.block (s := S1024x4096) S1024x1024.size (cc0_transform_6 i) (hinb0_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S1024x4096, .f32⟩
  | .hbm, ⟨15, _⟩ => ⟨S1024x4096, .f32⟩
  | .hbm, ⟨16, _⟩ => ⟨S_, .f32⟩
  | .hbm, ⟨17, _⟩ => ⟨S1024x4096, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .i1⟩
  | .hbm, ⟨28, _⟩ => ⟨S1024x4096, .f32⟩
  | .hbm, ⟨29, _⟩ => ⟨S_, .f32⟩
  | .hbm, ⟨30, _⟩ => ⟨S1024x4096, .f32⟩
  | .hbm, ⟨31, _⟩ => ⟨S1024x4096, .i1⟩
  | .hbm, ⟨32, _⟩ => ⟨S_, .f32⟩
  | .hbm, ⟨33, _⟩ => ⟨S_, .f32⟩
  | .hbm, ⟨34, _⟩ => ⟨S1024x4096, .f32⟩
  | .hbm, ⟨35, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  dot_S1024x4096_S4096x4096_S1024x4096_1_1_0_0_n_n_wf : DotDims.WF S1024x4096 S4096x4096 S1024x4096 [1] [1] [0] [0] [] []

variable [Facts₀]

def dot_S1024x4096_S4096x4096_S1024x4096_1_1_0_0_n_n : DotDims S1024x4096 S4096x4096 S1024x4096 where
  lhsContracting := [1]
  rhsContracting := [1]
  lhsNonContracting := [0]
  rhsNonContracting := [0]
  lhsBatch := []
  rhsBatch := []
  wf := dot_S1024x4096_S4096x4096_S1024x4096_1_1_0_0_n_n_wf

class Facts : Prop extends Facts₀ where

variable [Facts]
-- ==== Proof.Spec.lean ====
/-
  The leaky-integrate-and-fire layer as ONE function of the argument arrays, entry by entry, on the extended
  reals: for a batch row b and an output unit o,

      mem (b, o)   = v (b, o) · σ(τ o) · (1 − s (b, o)) + Σ_i a (b, i) · W (o, i)        (i over the 4096 inputs)
      kept (b, o)  = mem (b, o) if mem (b, o) < θ, else 0
      spike (b, o) = 1 if mem (b, o) > θ, else 0

  with σ the logistic function and θ the threshold word. Beside it the three small laws the two programs'
  spellings differ by: a sum over 4096 inputs is the sum of its four consecutive blocks of 1024; a finite
  number minus itself is zero; and "x − θ above zero" is "x above θ".
-/
import Idealize.ShloMosaic.PureOps.Ideal
import Idealize.ShloMosaic.PureOps.Ideal.Laws
import Idealize.ShloMosaic.Lib.ValueIdx

noncomputable section

namespace Cert.Lif

open Idealize.ShloMosaic Idealize.ShloMosaic.ValueIdx

/-! ## Entries by natural-number coordinates -/

/-- The entry of a matrix at row `r`, column `c` given as natural numbers (zero outside the matrix): with it
    the arithmetic of block offsets is arithmetic on ℕ. -/
def at2 {n0 n1 : Nat} (x : (⟨2, ![n0, n1]⟩ : Shape).Idx → EReal) (r c : Nat) : EReal :=
  if h : r < n0 ∧ c < n1 then x (ix2 ⟨r, h.1⟩ ⟨c, h.2⟩) else 0

/-- An entry read at an index is the entry at the index's coordinates. -/
theorem at2_eq {n0 n1 : Nat} (x : (⟨2, ![n0, n1]⟩ : Shape).Idx → EReal) (i : (⟨2, ![n0, n1]⟩ : Shape).Idx) (r c : Nat)
    (hr : (i 0).val = r) (hc : (i 1).val = c) : x i = at2 x r c := by
  subst hr hc
  unfold at2
  rw [dif_pos ⟨(i 0).isLt, (i 1).isLt⟩]
  exact congrArg x (eq_ix2 i)

/-- The entry of a vector at position `r` given as a natural number (zero outside). -/
def at1 {n : Nat} (x : (⟨1, ![n]⟩ : Shape).Idx → EReal) (r : Nat) : EReal :=
  if h : r < n then x (ix1 ⟨r, h⟩) else 0

theorem at1_eq {n : Nat} (x : (⟨1, ![n]⟩ : Shape).Idx → EReal) (i : (⟨1, ![n]⟩ : Shape).Idx) (r : Nat)
    (hr : (i 0).val = r) : x i = at1 x r := by
  subst hr
  unfold at1
  rw [dif_pos (show (i 0).val < n from (i 0).isLt)]
  exact congrArg x (eq_ix1 i)

/-! ## The words -/

/-- The word of `1.0`, the threshold's word and the zero word, as the extended reals they denote. -/
abbrev one : EReal := Ideal.ofBits .f32 0x3F800000#32
abbrev thr : EReal := Ideal.ofBits .f32 0x3E99999A#32
abbrev zero : EReal := Ideal.ofBits .f32 0x00000000#32

theorem one_eq : one = 1 := IdealRules.sign_bit.ideal_onePat .f32
theorem zero_eq : zero = 0 := Ideal.ofBits_zero_f32

/-- The logistic function spelled out — one over one plus the exponential of the negated argument, with the
    word of `1.0` for the ones — is the logistic function. -/
theorem logistic_spelled (x : EReal) : Ideal.div one (one + Ideal.exp (-x)) = Ideal.logistic x := by
  rw [one_eq]; rfl

/-! ## The specification -/

/-- The membrane potential before thresholding. -/
def mem (a v s : (⟨2, ![1024, 4096]⟩ : Shape).Idx → EReal) (W : (⟨2, ![4096, 4096]⟩ : Shape).Idx → EReal)
    (tau : (⟨1, ![4096]⟩ : Shape).Idx → EReal) (i : (⟨2, ![1024, 4096]⟩ : Shape).Idx) : EReal :=
  v i * Ideal.logistic (tau (ix1 (i 1))) * (one - s i) + ∑ k : Fin 4096, a (ix2 (i 0) k) * W (ix2 (i 1) k)

/-- The potential kept below the threshold, reset to zero at or above it. -/
def kept (a v s : (⟨2, ![1024, 4096]⟩ : Shape).Idx → EReal) (W : (⟨2, ![4096, 4096]⟩ : Shape).Idx → EReal)
    (tau : (⟨1, ![4096]⟩ : Shape).Idx → EReal) : (⟨2, ![1024, 4096]⟩ : Shape).Idx → EReal := fun i =>
  Scalar.select (Ideal.cmp .olt (mem a v s W tau i) thr) (mem a v s W tau i) zero

/-- The spike: one above the threshold, zero otherwise (the comparison's bit read as a number). -/
def spike (a v s : (⟨2, ![1024, 4096]⟩ : Shape).Idx → EReal) (W : (⟨2, ![4096, 4096]⟩ : Shape).Idx → EReal)
    (tau : (⟨1, ![4096]⟩ : Shape).Idx → EReal) : (⟨2, ![1024, 4096]⟩ : Shape).Idx → EReal := fun i =>
  ((((Ideal.cmp .ogt (mem a v s W tau i) thr).toNat : ℝ)) : EReal)

/-! ## The three laws -/

/-- A sum over 4096 consecutive naturals is the sum of its four blocks of 1024. -/
theorem sum_blocks {M : Type*} [AddCommMonoid M] (f : Nat → M) :
    ∑ i : Fin 4096, f i.val = ∑ s ∈ Finset.range 4, ∑ k : Fin 1024, f (1024 * s + k.val) := by
  rw [← Fin.sum_univ_eq_sum_range (fun s => ∑ k : Fin 1024, f (1024 * s + k.val)) 4]
  rw [← Fintype.sum_prod_type' (fun (s : Fin 4) (k : Fin 1024) => f (1024 * s.val + k.val))]
  rw [← Equiv.sum_comp (finProdFinEquiv (m := 4) (n := 1024)) (fun i : Fin (4 * 1024) => f i.val)]
  refine Finset.sum_congr rfl fun x _ => ?_
  show f (x.2.val + 1024 * x.1.val) = f (1024 * x.1.val + x.2.val)
  rw [Nat.add_comm]

/-- A finite number minus itself is zero (an infinity minus itself is not). -/
theorem sub_self_of_real {x : EReal} (h : ∃ r : ℝ, x = (r : EReal)) : x - x = 0 := by
  obtain ⟨r, rfl⟩ := h
  exact EReal.sub_self (EReal.coe_ne_top r) (EReal.coe_ne_bot r)

/-- "x − θ is above zero" is "x is above θ", and the comparison's bit read as an unsigned number is the bit
    widened to a word and read as a signed number: the reference's spelling of the spike is the kernel's. -/
theorem spike_spellings (x c : EReal) :
    (((Ideal.cmp .ogt (x - c) zero).toNat : ℝ) : EReal) = ((((Ideal.cmp .ogt x c).setWidth 32).toInt : ℝ) : EReal) := by
  have hb : ∀ b : BitVec 1, ((b.setWidth 32).toInt : ℝ) = (b.toNat : ℝ) := by
    intro b
    have : (b.setWidth 32).toInt = (b.toNat : Int) := by revert b; decide
    rw [this]; simp
  rw [hb, zero_eq]
  have : Ideal.cmp .ogt (x - c) 0 = Ideal.cmp .ogt x c := by
    unfold Ideal.cmp
    simp only [EReal.sub_pos]
  rw [this]

/-- The membrane potential in natural-number coordinates, its sum over the 4096 inputs already split into the
    four blocks of 1024 a run of grid points walks through. -/
theorem mem_at (a v s : (⟨2, ![1024, 4096]⟩ : Shape).Idx → EReal) (W : (⟨2, ![4096, 4096]⟩ : Shape).Idx → EReal)
    (tau : (⟨1, ![4096]⟩ : Shape).Idx → EReal) (i : (⟨2, ![1024, 4096]⟩ : Shape).Idx) (r o : Nat)
    (hr : (i 0).val = r) (ho : (i 1).val = o) :
    mem a v s W tau i = at2 v r o * Ideal.logistic (at1 tau o) * (one - at2 s r o)
      + ∑ b ∈ Finset.range 4, ∑ k : Fin 1024, at2 a r (1024 * b + k.val) * at2 W o (1024 * b + k.val) := by
  unfold mem
  rw [at2_eq v i r o hr ho, at2_eq s i r o hr ho, at1_eq tau (ix1 (i 1)) o ho]
  have hk : ∀ k : Fin 4096, a (ix2 (i 0) k) * W (ix2 (i 1) k) = (fun n => at2 a r n * at2 W o n) k.val := fun k => by
    rw [at2_eq a (ix2 (i 0) k) r k.val hr rfl, at2_eq W (ix2 (i 1) k) o k.val ho rfl]
  rw [Finset.sum_congr rfl (fun k _ => hk k)]
  exact congrArg (_ + ·) (sum_blocks (fun n => at2 a r n * at2 W o n))

end Cert.Lif

end
-- ==== Proof.Finite.lean ====
/-
  What the precondition gives: every weight is a real number. The precondition is the conjunction of five
  "all entries have absolute value below +∞"; the fourth speaks of the weights.
-/
import proofs.«126963_j58437325030132_2_alg».proof.Pre_finite_inputs
import Idealize.ShloMosaic.Lib.ReduceAll
import Idealize.ShloMosaic.Lib.ValueIdx
import Idealize.ShloMosaic.PureOps.Ideal

noncomputable section

namespace Cert.Lif.Finite

open Idealize.ShloMosaic Cert.Pre_finite_inputs

instance : Subsingleton S_.Idx := ⟨fun a b => funext fun d => d.elim0⟩

/-- An extended real whose absolute value is strictly below +∞ is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of the fourth argument, the weights, is a real number. -/
theorem weights_real [Facts] (a0 a1 a2 : FVec Ideal S1024x4096 .f32) (a3 : FVec Ideal S4096x4096 .f32) (a4 : FVec Ideal S4096 .f32)
    (h : fn (F := Ideal) a0 a1 a2 a3 a4 = fun _ => 1#1) (i : S4096x4096.Idx) : ∃ r : ℝ, a3 i = (r : EReal) := by
  have h0 := congrFun h ValueIdx.ix0
  dsimp only [fn, fn_part1] at h0
  have h1 := (IntOp.andi_eq_one.mp h0).1
  have h2 := (IntOp.andi_eq_one.mp h1).2
  have h3 := Host.reduce_andi_all _ _ _ _ ValueIdx.ix0 h2 i
  exact real_of_abs_lt (a3 i) h3

end Cert.Lif.Finite

end
-- ==== Proof.RefRead.lean ====
/-
  The reference computes the specification: its potential is `mem`, its first result `kept`, its second `spike`.
-/
import proofs.«126963_j58437325030132_2_alg».proof.Proof.Gen.ReferenceIdeal.Read
import proofs.«126963_j58437325030132_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Lif Idealize.ShloMosaic Idealize.ShloMosaic.ValueIdx

/-- The index the reference's two broadcasts of σ(τ) read: the output unit. -/
theorem idx_tau (i : S1024x4096.Idx) : idx_main_v6 (idx_main_v7 i) = ix1 (i 1) :=
  funext fun a => Fin.ext (by match a with | ⟨0, _⟩ => rfl)

/-- The indices the reference's product reads: input spikes at (row, k), weights at (unit, k). -/
theorem idx_lhs (i : S1024x4096.Idx) (k : Fin 4096) : lidx_main_v12 i k = ix2 (i 0) k :=
  funext fun a => Fin.ext (by match a with | ⟨0, _⟩ => rfl | ⟨1, _⟩ => rfl)
theorem idx_rhs (i : S1024x4096.Idx) (k : Fin 4096) : ridx_main_v12 i k = ix2 (i 1) k :=
  funext fun a => Fin.ext (by match a with | ⟨0, _⟩ => rfl | ⟨1, _⟩ => rfl)

/-- The reference's potential, entry by entry. -/
theorem potential_eq (x0 x1 x2 : (⟨S1024x4096, .f32⟩ : BufTy).Contents (Elt Ideal)) (x3 : (⟨S4096x4096, .f32⟩ : BufTy).Contents (Elt Ideal)) (x4 : (⟨S4096, .f32⟩ : BufTy).Contents (Elt Ideal)) (i : S1024x4096.Idx) :
    val_main_v13 (F := Ideal) x0 x1 x2 x3 x4 i = mem x0 x1 x2 x3 x4 i := by
  rw [val_main_v13_apply, val_main_v11_apply, val_main_v8_apply, val_main_v7_apply, val_main_v6_apply, val_main_v5_apply,
    val_main_v4_apply, val_main_cst_0_apply, val_main_v3_apply, val_main_v2_apply, val_main_cst_apply, val_main_v1_apply,
    val_main_v0_apply, val_main_v10_apply, val_main_v9_apply, val_main_cst_1_apply, val_main_v12_apply]
  simp only [Ideal.addf_def, Ideal.mulf_def, Ideal.subf_def, Ideal.hostDivf_def, Ideal.hostUnary_exp_def, Ideal.hostNegf_def,
    Ideal.negf_def, Ideal.ofBits_def, idx_tau, idx_lhs, idx_rhs]
  unfold mem
  rw [← logistic_spelled]
  rfl

/-- "x − θ above zero" is "x above θ". -/
theorem above_sub (x c : EReal) : Ideal.cmp .ogt (x - c) zero = Ideal.cmp .ogt x c := by
  rw [zero_eq]
  unfold Ideal.cmp
  simp only [EReal.sub_pos]

/-- The reference's first result is the kept potential. -/
theorem kept_eq (x0 x1 x2 : (⟨S1024x4096, .f32⟩ : BufTy).Contents (Elt Ideal)) (x3 : (⟨S4096x4096, .f32⟩ : BufTy).Contents (Elt Ideal)) (x4 : (⟨S4096, .f32⟩ : BufTy).Contents (Elt Ideal)) :
    val_main_v21 (F := Ideal) x0 x1 x2 x3 x4 = kept x0 x1 x2 x3 x4 := by
  funext i
  rw [val_main_v21_apply, val_main_v20_apply, val_main_v19_apply, val_main_cst_4_apply, val_main_call0_v1_apply,
    val_main_call0_v0_apply, val_main_cst_5_apply, potential_eq]
  rfl

/-- The reference's second result is the spike. -/
theorem spike_eq (x0 x1 x2 : (⟨S1024x4096, .f32⟩ : BufTy).Contents (Elt Ideal)) (x3 : (⟨S4096x4096, .f32⟩ : BufTy).Contents (Elt Ideal)) (x4 : (⟨S4096, .f32⟩ : BufTy).Contents (Elt Ideal)) :
    val_main_v18 (F := Ideal) x0 x1 x2 x3 x4 = spike x0 x1 x2 x3 x4 := by
  funext i
  rw [val_main_v18_apply, val_main_v17_apply, val_main_v16_apply, val_main_cst_3_apply, val_main_v15_apply,
    val_main_v14_apply, val_main_cst_2_apply, potential_eq]
  show ((((Ideal.cmp .ogt (mem x0 x1 x2 x3 x4 i - thr) zero).toNat : ℝ)) : EReal) = _
  rw [above_sub]
  rfl

end Cert.ReferenceIdeal.RefValue

end
-- ==== Proof.Payload.lean ====
/-
  The kernel body's arithmetic at one entry, on the extended reals.
-/
import proofs.«126963_j58437325030132_2_alg».proof.Proof.Gen.KernelIdeal.Skeleton
import proofs.«126963_j58437325030132_2_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.Lif Idealize.ShloMosaic Idealize.ShloMosaic.TcCoe Idealize.ShloMosaic.ValueIdx

/-- The product's left operand is read at the output entry's row, -/
theorem lhs_row (i : S1024x1024.Idx) (z : (dot_S1024x1024_S1024x1024_S1024x1024_1_1_0_0_n_n).contr.Idx) :
    ((dot_S1024x1024_S1024x1024_S1024x1024_1_1_0_0_n_n).lhsIdx i z 0).val = (i 0).val := by
  unfold DotDims.lhsIdx
  rw [dif_neg (show ¬(0 : Fin S1024x1024.rank) ∈ (dot_S1024x1024_S1024x1024_S1024x1024_1_1_0_0_n_n).lhsBatch by decide),
    dif_pos (show (0 : Fin S1024x1024.rank) ∈ (dot_S1024x1024_S1024x1024_S1024x1024_1_1_0_0_n_n).lhsNonContracting by decide)]
  rfl

/-- and its right operand at the row the output entry's column names (both operands are contracted on their second axis). -/
theorem rhs_row (i : S1024x1024.Idx) (z : (dot_S1024x1024_S1024x1024_S1024x1024_1_1_0_0_n_n).contr.Idx) :
    ((dot_S1024x1024_S1024x1024_S1024x1024_1_1_0_0_n_n).rhsIdx i z 0).val = (i 1).val := by
  unfold DotDims.rhsIdx
  rw [dif_neg (show ¬(0 : Fin S1024x1024.rank) ∈ (dot_S1024x1024_S1024x1024_S1024x1024_1_1_0_0_n_n).rhsBatch by decide),
    dif_pos (show (0 : Fin S1024x1024.rank) ∈ (dot_S1024x1024_S1024x1024_S1024x1024_1_1_0_0_n_n).rhsNonContracting by decide)]
  rfl

/-- A product of two 1024 × 1024 blocks contracted on their second axes, into a zero accumulator: entry (p, q) is
    the sum over k of left (p, k) times right (q, k). -/
theorem matmul_zero_apply (l r : FVec Ideal S1024x1024 .bf16) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  show FloatOps.matmul dot_S1024x1024_S1024x1024_S1024x1024_1_1_0_0_n_n none l r (constant S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : (dot_S1024x1024_S1024x1024_S1024x1024_1_1_0_0_n_n).lhsIdx (ix2 p q) ((contrEquiv1 dot_S1024x1024_S1024x1024_S1024x1024_1_1_0_0_n_n 1024 rfl rfl).symm k) = ix2 p k :=
    funext fun a => Fin.ext (by
      match a with
      | ⟨0, _⟩ => exact lhs_row _ _
      | ⟨1, _⟩ => exact ((dot_S1024x1024_S1024x1024_S1024x1024_1_1_0_0_n_n).lhsIdx_val_of_single rfl _ _).trans hk)
  have er : (dot_S1024x1024_S1024x1024_S1024x1024_1_1_0_0_n_n).rhsIdx (ix2 p q) ((contrEquiv1 dot_S1024x1024_S1024x1024_S1024x1024_1_1_0_0_n_n 1024 rfl rfl).symm k) = ix2 q k :=
    funext fun a => Fin.ext (by
      match a with
      | ⟨0, _⟩ => exact rhs_row _ _
      | ⟨1, _⟩ => exact ((dot_S1024x1024_S1024x1024_S1024x1024_1_1_0_0_n_n).rhsIdx_val_of_single rfl _ _).trans hk)
  rw [el, er]

/-- What one grid point adds to the accumulator, at entry (p, q): the accumulator's entry plus the sum over the
    block's 1024 columns of a (p, k) · W (q, k) — the kernel's second product, of a with W − W, is a sum of zeros
    where W is finite. -/
theorem pay2_apply (v3 v5 v10 : Vec Ideal S1024x1024 .f32) (p q : Fin 1024)
    (hfin : ∀ k : Fin 1024, ∃ r : ℝ, v5 (ix2 q k) = (r : EReal)) :
    k0_pay2 (F := Ideal) v3 v5 v10 (ix2 p q) = v10 (ix2 p q) + ∑ k : Fin 1024, v3 (ix2 p k) * v5 (ix2 q k) := by
  unfold k0_pay2
  simp only [shapeCast_self]
  show v10 (ix2 p q) + (matmul (F := Ideal) dot_S1024x1024_S1024x1024_S1024x1024_1_1_0_0_n_n none (truncf .bf16 v3 bitsLt_bf16_f32) (truncf .bf16 v5 bitsLt_bf16_f32) (constant S1024x1024 .f32 0x00000000#32) (ix2 p q)
      + matmul (F := Ideal) dot_S1024x1024_S1024x1024_S1024x1024_1_1_0_0_n_n none (truncf .bf16 v3 bitsLt_bf16_f32) (truncf .bf16 (subf v5 v5) bitsLt_bf16_f32) (constant S1024x1024 .f32 0x00000000#32) (ix2 p q)) = _
  rw [matmul_zero_apply, matmul_zero_apply]
  have h2 : ∑ k : Fin 1024, (truncf .bf16 v3 bitsLt_bf16_f32 : FVec Ideal S1024x1024 .bf16) (ix2 p k)
      * (truncf .bf16 (subf v5 v5) bitsLt_bf16_f32 : FVec Ideal S1024x1024 .bf16) (ix2 q k) = 0 := by
    refine Finset.sum_eq_zero fun k _ => ?_
    show v3 (ix2 p k) * (v5 (ix2 q k) - v5 (ix2 q k)) = 0
    rw [sub_self_of_real (hfin k), mul_zero]
  rw [h2, add_zero]
  rfl

/-- The reset stores zeros. -/
theorem pay1_apply (y : S1024x1024.Idx) : k0_pay1 (F := Ideal) y = 0 := by
  unfold k0_pay1
  simp only [shapeCast_self]
  show Ideal.ofBits .f32 0x00000000#32 = 0
  exact Ideal.ofBits_zero_f32

/-- The membrane potential the last point of a run computes, at entry (p, q) of its block: the old potential
    times the logistic of the unit's time constant times one minus the old spike, plus the accumulator. -/
theorem pay3_apply (v21 : Vec Ideal S1x1024 .f32) (v24 v27 v31 : Vec Ideal S1024x1024 .f32) (p q : Fin 1024) :
    k0_pay3 (F := Ideal) v21 v24 v27 v31 (ix2 p q)
      = v24 (ix2 p q) * Ideal.logistic (v21 (ix2 (0 : Fin 1) q)) * (one - v27 (ix2 p q)) + v31 (ix2 p q) := by
  unfold k0_pay3
  simp only [shapeCast_self]
  have hb : broadcastTo S1024x1024 (logistic (F := Ideal) (φ := .f32) v21) broadcasts_S1x1024_S1024x1024 (ix2 p q)
      = Ideal.logistic (v21 (ix2 (0 : Fin 1) q)) :=
    broadcastTo_apply (logistic (F := Ideal) (φ := .f32) v21) broadcasts_S1x1024_S1024x1024 (ix2 p q) (ix2 (0 : Fin 1) q) (fun a => match a with
      | ⟨0, _⟩ => by show (0 : Nat) = if (1 : Nat) = 1 then 0 else _; rw [if_pos rfl]
      | ⟨1, _⟩ => by show q.val = if (1024 : Nat) = 1 then 0 else q.val; rw [if_neg (by decide)])
  show v24 (ix2 p q) * broadcastTo S1024x1024 (logistic (F := Ideal) (φ := .f32) v21) broadcasts_S1x1024_S1024x1024 (ix2 p q)
      * (one - v27 (ix2 p q)) + v31 (ix2 p q) = _
  rw [hb]

/-- The spike the last point stores: the bit of "potential above threshold", widened and read as a number. -/
theorem pay4_apply (v21 : Vec Ideal S1x1024 .f32) (v24 v27 v31 : Vec Ideal S1024x1024 .f32) (y : S1024x1024.Idx) :
    k0_pay4 (F := Ideal) v21 v24 v27 v31 y
      = ((((Ideal.cmp .ogt (k0_pay3 (F := Ideal) v21 v24 v27 v31 y) thr).setWidth 32).toInt : ℝ) : EReal) := rfl

/-- The potential the last point stores: kept below the threshold, zero otherwise. -/
theorem pay5_apply (v21 : Vec Ideal S1x1024 .f32) (v24 v27 v31 : Vec Ideal S1024x1024 .f32) (y : S1024x1024.Idx) :
    k0_pay5 (F := Ideal) v21 v24 v27 v31 y
      = Scalar.select (Ideal.cmp .olt (k0_pay3 (F := Ideal) v21 v24 v27 v31 y) thr) (k0_pay3 (F := Ideal) v21 v24 v27 v31 y) zero := rfl

end Cert.KernelIdeal.Payload

end
-- ==== Proof.Pieces.lean ====
/-
  What each control case of the kernel body leaves behind, as the body's arithmetic of its loads.
-/
import proofs.«126963_j58437325030132_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every load and store of the body is at offset zero: it moves a whole block. -/
theorem hz : (![0, 0] : Fin 2 → Nat) = fun _ => 0 := funext fun a => by fin_cases a <;> rfl

/-- A middle point of a run (neither first nor last) leaves in the accumulator what it found there plus the point's
    two products. -/
theorem scratch_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .f32) (x2 : Vec F S1024x1024 .f32) (x3 : Vec F S1024x1024 .f32) (x4 : Vec F S1x1024 .f32) (xs0 : Vec F S1024x1024 .f32) :
    sout0_B_0 c i arg2 harg2 arg3 harg3 arg4 harg4 arg5 harg5 arg6 harg6 arg7 harg7 arg8 harg8 arg9 harg9 hc0 hc1 x0 x1 x2 x3 x4 xs0 = k0_pay2 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0)]
  unfold kernelRun0_B
  dsimp only
  rw [View.canon_unit_zero hz]
  simp only [View.readAt_eq_ld, harg2.read_unread, harg3.read_unread, harg9.read_unread, View.ld_unit_zero (S := S1024x1024) hz]

/-- The last point of a run updates the accumulator the same way, -/
theorem scratch_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .f32) (x2 : Vec F S1024x1024 .f32) (x3 : Vec F S1024x1024 .f32) (x4 : Vec F S1x1024 .f32) (xs0 : Vec F S1024x1024 .f32) :
    sout0_C_0 c i arg2 harg2 arg3 harg3 arg4 harg4 arg5 harg5 arg6 harg6 arg7 harg7 arg8 harg8 arg9 harg9 hc0 hc1 x0 x1 x2 x3 x4 xs0 = k0_pay2 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg2.read_unread, harg3.read_unread, harg9.read_unread, View.ld_unit_zero (S := S1024x1024) hz]

/-- then stores the kept potential computed from the updated accumulator, -/
theorem kept_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .f32) (x2 : Vec F S1024x1024 .f32) (x3 : Vec F S1024x1024 .f32) (x4 : Vec F S1x1024 .f32) (xs0 : Vec F S1024x1024 .f32) :
    out0_C_5 c i arg2 harg2 arg3 harg3 arg4 harg4 arg5 harg5 arg6 harg6 arg7 harg7 arg8 harg8 arg9 harg9 hc0 hc1 x0 x1 x2 x3 x4 xs0 = k0_pay5 x4 x2 x3 (k0_pay2 x0 x1 xs0) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x1024) _ hz]
  simp only [View.readAt_eq_ld, harg2.read_unread, harg3.read_unread, harg4.read_unread, harg5.read_unread, harg6.read_unread,
    harg9.read_unread, View.ld_unit_zero (S := S1024x1024) hz, View.ld_unit_zero (S := S1x1024) hz]

/-- and the spike, from the same. -/
theorem spike_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .f32) (x2 : Vec F S1024x1024 .f32) (x3 : Vec F S1024x1024 .f32) (x4 : Vec F S1x1024 .f32) (xs0 : Vec F S1024x1024 .f32) :
    out0_C_6 c i arg2 harg2 arg3 harg3 arg4 harg4 arg5 harg5 arg6 harg6 arg7 harg7 arg8 harg8 arg9 harg9 hc0 hc1 x0 x1 x2 x3 x4 xs0 = k0_pay4 x4 x2 x3 (k0_pay2 x0 x1 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x1024) _ hz]
  simp only [View.readAt_eq_ld, harg2.read_unread, harg3.read_unread, harg4.read_unread, harg5.read_unread, harg6.read_unread,
    harg9.read_unread, View.ld_unit_zero (S := S1024x1024) hz, View.ld_unit_zero (S := S1x1024) hz]

/-- The first point of a run resets the accumulator to zeros and then updates it the same way. -/
theorem scratch_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .f32) (x2 : Vec F S1024x1024 .f32) (x3 : Vec F S1024x1024 .f32) (x4 : Vec F S1x1024 .f32) :
    sout0_A_0 c i arg2 harg2 arg3 harg3 arg4 harg4 arg5 harg5 arg6 harg6 arg7 harg7 arg8 harg8 arg9 harg9 hc0 hc1 x0 x1 x2 x3 x4 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, View.ld_unit_zero (S := S1024x1024) hz]

end Cert.KernelIdeal.Pieces

end
-- ==== Proof.Blocks.lean ====
/-
  The windows' blocks. Grid point t is the pair (j, k) = (t / 4, t % 4): j selects a block of 1024 output units,
  k a block of 1024 inputs. At that point the kernel sees rows 0..1023 and columns 1024k.. of the input spikes,
  rows 1024j.. and columns 1024k.. of the weights, and columns 1024j.. of the old potentials, the old spikes and
  the time constants (a vector, seen as one row).
-/
import proofs.«126963_j58437325030132_2_alg».proof.Proof.Gen.KernelIdeal.Frame
import proofs.«126963_j58437325030132_2_alg».proof.Proof.Spec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Cert.Lif Idealize.ShloMosaic Idealize.ShloMosaic.TcCoe Idealize.SL.Sem
  Idealize.ShloMosaic.ValueIdx Idealize.ShloMosaic.StableHlo

variable (m : (ℓ : Loc nD τ sig) → Buf (Elt Ideal) ℓ)

/-- The argument arrays as launched: input spikes, old potentials, old spikes, weights, time constants. -/
abbrev aIn (c : Dev nD) : (⟨2, ![1024, 4096]⟩ : Shape).Idx → EReal := m ((c : Thread nD τ).loc main_arg0)
abbrev vOld (c : Dev nD) : (⟨2, ![1024, 4096]⟩ : Shape).Idx → EReal := m ((c : Thread nD τ).loc main_arg1)
abbrev sOld (c : Dev nD) : (⟨2, ![1024, 4096]⟩ : Shape).Idx → EReal := m ((c : Thread nD τ).loc main_arg2)
abbrev wts (c : Dev nD) : (⟨2, ![4096, 4096]⟩ : Shape).Idx → EReal := m ((c : Thread nD τ).loc main_arg3)
abbrev tauVec (c : Dev nD) : (⟨1, ![4096]⟩ : Shape).Idx → EReal := m ((c : Thread nD τ).loc main_arg4)

/-- The windows' block indices at the sixteen grid points, decided: (0, k), (j, k), and (0, j) for the rest. -/
theorem idx_maps : ∀ t : Fin cfg0.N,
      win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val / 4
    ∧ win0_3.index t (0 : Fin 2) = 0 ∧ win0_3.index t (1 : Fin 2) = t.val / 4
    ∧ win0_4.index t (0 : Fin 2) = 0 ∧ win0_4.index t (1 : Fin 2) = t.val / 4
    ∧ win0_5.index t (0 : Fin 2) = 0 ∧ win0_5.index t (1 : Fin 2) = t.val / 4
    ∧ win0_6.index t (0 : Fin 2) = 0 ∧ win0_6.index t (1 : Fin 2) = t.val / 4 :=
  (by decide +kernel : ∀ t : Fin grid0.N, _)

/-- The input-spike block at point t: row (y 0), column 1024·(t % 4) + (y 1). -/
theorem read_aIn (c : Dev nD) (t : Fin cfg0.N) (y : S1024x1024.Idx) :
    (iblk m c 0 t : Vec Ideal S1024x1024 .f32) y = at2 (aIn m c) (y 0).val (1024 * (t.val % 4) + (y 1).val) := by
  obtain ⟨e0, e1, -⟩ := idx_maps t
  show V m c main_arg0 (((cfg0.win 0).blk t).view.emb y) = _
  rw [V_main_arg0 m c]
  refine at2_eq (aIn m c) (((cfg0.win 0).blk t).view.emb y) _ _ ?_ ?_
  · show win0_0.index t (0 : Fin 2) * 1024 + 1 * (y 0).val = (y 0).val; rw [e0]; omega
  · show win0_0.index t (1 : Fin 2) * 1024 + 1 * (y 1).val = 1024 * (t.val % 4) + (y 1).val; rw [e1]; omega

/-- The weight block at point t: row 1024·(t / 4) + (y 0), column 1024·(t % 4) + (y 1). -/
theorem read_wts (c : Dev nD) (t : Fin cfg0.N) (y : S1024x1024.Idx) :
    (iblk m c 1 t : Vec Ideal S1024x1024 .f32) y
      = at2 (wts m c) (1024 * (t.val / 4) + (y 0).val) (1024 * (t.val % 4) + (y 1).val) := by
  obtain ⟨-, -, e0, e1, -⟩ := idx_maps t
  show V m c main_arg3 (((cfg0.win 1).blk t).view.emb y) = _
  rw [V_main_arg3 m c]
  refine at2_eq (wts m c) (((cfg0.win 1).blk t).view.emb y) _ _ ?_ ?_
  · show win0_1.index t (0 : Fin 2) * 1024 + 1 * (y 0).val = 1024 * (t.val / 4) + (y 0).val; rw [e0]; omega
  · show win0_1.index t (1 : Fin 2) * 1024 + 1 * (y 1).val = 1024 * (t.val % 4) + (y 1).val; rw [e1]; omega

/-- The old-potential block at point t: row (y 0), column 1024·(t / 4) + (y 1). -/
theorem read_vOld (c : Dev nD) (t : Fin cfg0.N) (y : S1024x1024.Idx) :
    (iblk m c 2 t : Vec Ideal S1024x1024 .f32) y = at2 (vOld m c) (y 0).val (1024 * (t.val / 4) + (y 1).val) := by
  obtain ⟨-, -, -, -, e0, e1, -⟩ := idx_maps t
  show V m c main_arg1 (((cfg0.win 2).blk t).view.emb y) = _
  rw [V_main_arg1 m c]
  refine at2_eq (vOld m c) (((cfg0.win 2).blk t).view.emb y) _ _ ?_ ?_
  · show win0_2.index t (0 : Fin 2) * 1024 + 1 * (y 0).val = (y 0).val; rw [e0]; omega
  · show win0_2.index t (1 : Fin 2) * 1024 + 1 * (y 1).val = 1024 * (t.val / 4) + (y 1).val; rw [e1]; omega

/-- The old-spike block at point t, likewise. -/
theorem read_sOld (c : Dev nD) (t : Fin cfg0.N) (y : S1024x1024.Idx) :
    (iblk m c 3 t : Vec Ideal S1024x1024 .f32) y = at2 (sOld m c) (y 0).val (1024 * (t.val / 4) + (y 1).val) := by
  obtain ⟨-, -, -, -, -, -, e0, e1, -⟩ := idx_maps t
  show V m c main_arg2 (((cfg0.win 3).blk t).view.emb y) = _
  rw [V_main_arg2 m c]
  refine at2_eq (sOld m c) (((cfg0.win 3).blk t).view.emb y) _ _ ?_ ?_
  · show win0_3.index t (0 : Fin 2) * 1024 + 1 * (y 0).val = (y 0).val; rw [e0]; omega
  · show win0_3.index t (1 : Fin 2) * 1024 + 1 * (y 1).val = 1024 * (t.val / 4) + (y 1).val; rw [e1]; omega

/-- The time constants reach the kernel as one row of 4096: the vector with a unit axis in front. -/
theorem tau_row (c : Dev nD) :
    (V m c main_v0 : S1x4096.Idx → EReal) = shapeCast S1x4096 (tauVec m c) shapeCasts_S4096_S1x4096 := by
  dsimp only [Gen.V, Gen.hostOps0]; after_results; rfl

/-- The time-constant block at point t: position 1024·(t / 4) + (y 1) of the vector. -/
theorem read_tau (c : Dev nD) (t : Fin cfg0.N) (y : S1x1024.Idx) :
    (iblk m c 4 t : Vec Ideal S1x1024 .f32) y = at1 (tauVec m c) (1024 * (t.val / 4) + (y 1).val) := by
  obtain ⟨-, -, -, -, -, -, -, -, e0, e1, -⟩ := idx_maps t
  show (V m c main_v0 : S1x4096.Idx → EReal) (((cfg0.win 4).blk t).view.emb y) = _
  rw [tau_row m c]
  refine (shapeCast_addUnit_apply ![4096] (tauVec m c) shapeCasts_S4096_S1x4096 (((cfg0.win 4).blk t).view.emb y)).trans ?_
  refine at1_eq (tauVec m c) _ _ ?_
  show win0_4.index t (1 : Fin 2) * 1024 + 1 * (y 1).val = 1024 * (t.val / 4) + (y 1).val; rw [e1]; omega

end Cert.KernelIdeal.Blocks

end
-- ==== Proof.Accum.lean ====
/-
  The accumulator. A run is the four grid points (j, 0), (j, 1), (j, 2), (j, 3) of one block j of output units.
  Its first point resets the accumulator to zero; every point then adds, at entry (p, q), the sum over the
  point's 1024 input columns of a (p, ·) · W (1024 j + q, ·) — the kernel's second product, of a with W − W,
  contributes nothing because W is finite. So after the point (j, k) the accumulator holds the sum of the
  contributions of the points (j, 0) … (j, k).
-/
import proofs.«126963_j58437325030132_2_alg».proof.Proof.Gen.KernelIdeal.Value
import proofs.«126963_j58437325030132_2_alg».proof.Proof.Spec
import proofs.«126963_j58437325030132_2_alg».proof.Proof.Payload
import proofs.«126963_j58437325030132_2_alg».proof.Proof.Pieces
import proofs.«126963_j58437325030132_2_alg».proof.Proof.Blocks
import Idealize.ShloMosaic.Lib.Pipeline.Value

noncomputable section

namespace Cert.KernelIdeal.Accum

open Cert.KernelIdeal Cert.KernelIdeal.Gen Cert.KernelIdeal.Value Cert.KernelIdeal.Blocks Cert.KernelIdeal.Payload
  Cert.KernelIdeal.Pieces Cert.Lif Idealize.ShloMosaic Idealize.ShloMosaic.TcCoe Idealize.SL.Sem Idealize.ShloMosaic.ValueIdx

variable (m : (ℓ : Loc nD τ sig) → Buf (Elt Ideal) ℓ)

/-- Every weight is a real number. -/
def FiniteW (c : Dev nD) : Prop := ∀ i : (⟨2, ![4096, 4096]⟩ : Shape).Idx, ∃ r : ℝ, wts m c i = (r : EReal)

/-- An entry by natural-number coordinates of a matrix of reals is a real (zero outside the matrix). -/
theorem at2_real {n0 n1 : Nat} (x : (⟨2, ![n0, n1]⟩ : Shape).Idx → EReal) (hx : ∀ i, ∃ r : ℝ, x i = (r : EReal))
    (r c : Nat) : ∃ r' : ℝ, at2 x r c = (r' : EReal) := by
  unfold at2
  split
  · exact hx _
  · exact ⟨0, EReal.coe_zero.symm⟩

/-- What grid point `n` contributes at entry `y` of its block. -/
def addend (c : Dev nD) (n : Nat) (y : S1024x1024.Idx) : EReal :=
  ∑ k : Fin 1024, at2 (aIn m c) (y 0).val (1024 * (n % 4) + k.val)
    * at2 (wts m c) (1024 * (n / 4) + (y 1).val) (1024 * (n % 4) + k.val)

/-- One point's update of an accumulator `acc`: the entry plus the point's contribution. -/
theorem update_apply (c : Dev nD) (hW : FiniteW m c) (t : Fin cfg0.N) (acc : Vec Ideal S1024x1024 .f32) (y : S1024x1024.Idx) :
    k0_pay2 (F := Ideal) (iblk m c 0 t) (iblk m c 1 t) acc y = acc y + addend m c t.val y := by
  obtain ⟨p, q, rfl⟩ : ∃ (p q : Fin 1024), y = ix2 p q := ⟨y 0, y 1, eq_ix2 y⟩
  refine (pay2_apply (iblk m c 0 t) (iblk m c 1 t) acc p q ?_).trans ?_
  · intro k
    obtain ⟨r, hr⟩ := at2_real (wts m c) hW (1024 * (t.val / 4) + q.val) (1024 * (t.val % 4) + k.val)
    exact ⟨r, (read_wts m c t (ix2 q k)).trans hr⟩
  · refine congrArg (acc (ix2 p q) + ·) (Finset.sum_congr rfl fun k _ => ?_)
    exact congrArg₂ (· * ·) (read_aIn m c t (ix2 p k)) (read_wts m c t (ix2 q k))

/-- The first point of a run leaves zero plus its contribution, whatever the accumulator held. -/
theorem reset_apply (c : Dev nD) (hW : FiniteW m c) (n : Nat) (hb : n < cfg0.N) (h0 : n % 4 = 0)
    (acc : Vec Ideal S1024x1024 .f32) (y : S1024x1024.Idx) :
    scAt0_0 m c n hb acc y = 0 + addend m c n y := by
  have h1 : ¬n % 4 = 3 := by omega
  unfold scAt0_0
  rw [dif_pos h0, dif_neg h1]
  refine (congrFun (scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))) y).trans ?_
  refine (update_apply m c hW (⟨n, hb⟩ : Fin cfg0.N) (k0_pay1 (F := Ideal)) y).trans ?_
  rw [pay1_apply]

/-- Every later point of a run adds its contribution to what the point before left. -/
theorem step_apply (c : Dev nD) (hW : FiniteW m c) (n : Nat) (hb : n < cfg0.N) (h0 : ¬n % 4 = 0)
    (acc : Vec Ideal S1024x1024 .f32) (y : S1024x1024.Idx) :
    scAt0_0 m c n hb acc y = acc y + addend m c n y := by
  unfold scAt0_0
  rw [dif_neg h0]
  by_cases h1 : n % 4 = 3
  · rw [dif_pos h1]
    refine (congrFun (scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) y).trans ?_
    exact update_apply m c hW (⟨n, hb⟩ : Fin cfg0.N) acc y
  · rw [dif_neg h1]
    refine (congrFun (scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) y).trans ?_
    exact update_apply m c hW (⟨n, hb⟩ : Fin cfg0.N) acc y

/-- After grid point t the accumulator holds, at entry y, the contributions of its run's points up to t. -/
theorem acc_apply (c : Dev nD) (hW : FiniteW m c) (t : Fin cfg0.N) (y : S1024x1024.Idx) :
    (outsAt0 m c t.val t.isLt).2.2 y = 0 + ∑ b ∈ Finset.range (t.val % 4 + 1), addend m c (4 * (t.val / 4) + b) y := by
  rw [soutsAt0_0_eq m c t]
  exact Pipeline.accAt_add_apply (ι := S1024x1024.Idx) (β := EReal)
    (fun n h => scAt0_0 m c n h (VS0_0.read (Elt Ideal) VS0_0.junk)) (scAt0_0 m c) (fun _ => 0) (addend m c)
    (4 * (t.val / 4)) 3
    (fun h i => reset_apply m c hW _ h (by omega) _ i)
    (fun n h acc i hlo hhi => step_apply m c hW n h (by omega) acc i)
    (t.val % 4) (by omega) _ y

end Cert.KernelIdeal.Accum

end
-- ==== Proof.KernelValue.lean ====
/-
  The kernel's two result arrays. Only the last point (j, 3) of a run writes blocks back: block j (columns
  1024 j ..) of the kept potentials and of the spikes, computed from the old potentials, the old spikes, the
  time constants and the accumulator — which by then holds the whole sum over the 4096 inputs. The four
  written blocks tile each array, so each array ends holding the specification's function.
-/
import proofs.«126963_j58437325030132_2_alg».proof.Proof.Gen.KernelIdeal.Value
import proofs.«126963_j58437325030132_2_alg».proof.Proof.Spec
import proofs.«126963_j58437325030132_2_alg».proof.Proof.Payload
import proofs.«126963_j58437325030132_2_alg».proof.Proof.Pieces
import proofs.«126963_j58437325030132_2_alg».proof.Proof.Blocks
import proofs.«126963_j58437325030132_2_alg».proof.Proof.Accum
import Idealize.ShloMosaic.Lib.Pipeline.Value

noncomputable section

namespace Cert.KernelIdeal.RefValue

open Cert.KernelIdeal Cert.KernelIdeal.Gen Cert.KernelIdeal.Value Cert.KernelIdeal.Blocks Cert.KernelIdeal.Payload
  Cert.KernelIdeal.Pieces Cert.KernelIdeal.Accum Cert.Lif Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- What the two result arrays end holding. -/
abbrev keptArr (c : Dev nD) : Buf (Elt Ideal) ((c : Thread nD τ).loc main_v1_0) := kept (aIn m c) (vOld m c) (sOld m c) (wts m c) (tauVec m c)
abbrev spikeArr (c : Dev nD) : Buf (Elt Ideal) ((c : Thread nD τ).loc main_v1_1) := spike (aIn m c) (vOld m c) (sOld m c) (wts m c) (tauVec m c)

/-- At the last point of a run the accumulator the epilogue reads is the run's whole fold. -/
theorem last_acc (c : Dev nD) (t : Fin cfg0.N) (h0 : ¬t.val % 4 = 0) (h3 : t.val % 4 = 3) :
    k0_pay2 (F := Ideal) (iblk m c 0 t) (iblk m c 1 t) ((outsAt0 m c (t.val - 1) (Nat.lt_of_le_of_lt (Nat.sub_le _ _) t.isLt)).2.2) = (outsAt0 m c t.val t.isLt).2.2 := by
  have e : (outsAt0 m c t.val t.isLt).2.2
      = sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h3) (iblk m c 0 t) (iblk m c 1 t) (iblk m c 2 t) (iblk m c 3 t) (iblk m c 4 t) ((outsAt0 m c (t.val - 1) (Nat.lt_of_le_of_lt (Nat.sub_le _ _) t.isLt)).2.2) := by
    simp only [outsAt0_C m c t h0 h3]
  exact (e.trans (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h3) (iblk m c 0 t) (iblk m c 1 t) (iblk m c 2 t) (iblk m c 3 t) (iblk m c 4 t) ((outsAt0 m c (t.val - 1) (Nat.lt_of_le_of_lt (Nat.sub_le _ _) t.isLt)).2.2))).symm

/-- The potential the last point of a run computes at entry y of its block is the specification's potential at
    the entry's place in the array: same row, column 1024·(t / 4) + (y 1). -/
theorem potential_apply (c : Dev nD) (hW : FiniteW m c) (t : Fin cfg0.N) (h0 : ¬t.val % 4 = 0) (h3 : t.val % 4 = 3)
    (y : S1024x1024.Idx) (i : S1024x4096.Idx) (hi0 : (i 0).val = (y 0).val) (hi1 : (i 1).val = 1024 * (t.val / 4) + (y 1).val) :
    k0_pay3 (F := Ideal) (iblk m c 4 t) (iblk m c 2 t) (iblk m c 3 t)
        (k0_pay2 (F := Ideal) (iblk m c 0 t) (iblk m c 1 t) ((outsAt0 m c (t.val - 1) (Nat.lt_of_le_of_lt (Nat.sub_le _ _) t.isLt)).2.2)) y
      = mem (aIn m c) (vOld m c) (sOld m c) (wts m c) (tauVec m c) i := by
  obtain ⟨p, q, rfl⟩ : ∃ (p q : Fin 1024), y = ix2 p q := ⟨y 0, y 1, eq_ix2 y⟩
  have e2 : (iblk m c 2 t : Vec Ideal S1024x1024 .f32) (ix2 p q) = at2 (vOld m c) p.val (1024 * (t.val / 4) + q.val) :=
    read_vOld m c t (ix2 p q)
  have e3 : (iblk m c 3 t : Vec Ideal S1024x1024 .f32) (ix2 p q) = at2 (sOld m c) p.val (1024 * (t.val / 4) + q.val) :=
    read_sOld m c t (ix2 p q)
  have e4 : (iblk m c 4 t : Vec Ideal S1x1024 .f32) (ix2 (0 : Fin 1) q) = at1 (tauVec m c) (1024 * (t.val / 4) + q.val) :=
    read_tau m c t (ix2 (0 : Fin 1) q)
  have e5 : k0_pay2 (F := Ideal) (iblk m c 0 t) (iblk m c 1 t) ((outsAt0 m c (t.val - 1) (Nat.lt_of_le_of_lt (Nat.sub_le _ _) t.isLt)).2.2) (ix2 p q)
      = 0 + ∑ b ∈ Finset.range 4, addend m c (4 * (t.val / 4) + b) (ix2 p q) := by
    refine ((congrFun (last_acc m c t h0 h3) (ix2 p q)).trans (acc_apply m c hW t (ix2 p q))).trans ?_
    rw [h3]
  refine (pay3_apply (iblk m c 4 t) (iblk m c 2 t) (iblk m c 3 t)
    (k0_pay2 (F := Ideal) (iblk m c 0 t) (iblk m c 1 t) ((outsAt0 m c (t.val - 1) (Nat.lt_of_le_of_lt (Nat.sub_le _ _) t.isLt)).2.2)) p q).trans ?_
  refine (congrArg₂ (fun a b : EReal => a + b) (congrArg₂ (fun a b : EReal => a * b)
    (congrArg₂ (fun a b : EReal => a * b) e2 (congrArg Ideal.logistic e4)) (congrArg (fun a : EReal => one - a) e3)) e5).trans ?_
  rw [mem_at (aIn m c) (vOld m c) (sOld m c) (wts m c) (tauVec m c) i p.val (1024 * (t.val / 4) + q.val) hi0 hi1, zero_add]
  refine congrArg (_ + ·) (Finset.sum_congr rfl fun b hb => ?_)
  have hb4 : b < 4 := Finset.mem_range.mp hb
  unfold addend
  refine Finset.sum_congr rfl fun k _ => ?_
  have e1 : (4 * (t.val / 4) + b) % 4 = b := by omega
  have e6 : (4 * (t.val / 4) + b) / 4 = t.val / 4 := by omega
  rw [e1, e6]

/-- The comparison's bit, widened to a word and read as a signed number, is the bit read as an unsigned number. -/
theorem bit_widened (b : BitVec 1) : ((((b.setWidth 32).toInt : ℝ)) : EReal) = (((b.toNat : ℝ)) : EReal) := by
  have h : (b.setWidth 32).toInt = (b.toNat : Int) := by revert b; decide
  rw [h]; simp

/-- Where entry y of the block point t writes back sits in the array (both results use the same blocks). -/
theorem place_kept (t : Fin cfg0.N) (y : S1024x1024.Idx) :
    ((((cfg0.win 5).blk t).view.emb y) 0).val = (y 0).val ∧ ((((cfg0.win 5).blk t).view.emb y) 1).val = 1024 * (t.val / 4) + (y 1).val := by
  obtain ⟨-, -, -, -, -, -, -, -, -, -, e0, e1, -⟩ := idx_maps t
  constructor
  · show win0_5.index t (0 : Fin 2) * 1024 + 1 * (y 0).val = (y 0).val; rw [e0]; omega
  · show win0_5.index t (1 : Fin 2) * 1024 + 1 * (y 1).val = 1024 * (t.val / 4) + (y 1).val; rw [e1]; omega
theorem place_spike (t : Fin cfg0.N) (y : S1024x1024.Idx) :
    ((((cfg0.win 6).blk t).view.emb y) 0).val = (y 0).val ∧ ((((cfg0.win 6).blk t).view.emb y) 1).val = 1024 * (t.val / 4) + (y 1).val := by
  obtain ⟨-, -, -, -, -, -, -, -, -, -, -, -, e0, e1⟩ := idx_maps t
  constructor
  · show win0_6.index t (0 : Fin 2) * 1024 + 1 * (y 0).val = (y 0).val; rw [e0]; omega
  · show win0_6.index t (1 : Fin 2) * 1024 + 1 * (y 1).val = 1024 * (t.val / 4) + (y 1).val; rw [e1]; omega

/-- What a writing point writes back to the first result is its block of the kept potentials. -/
theorem flushed_kept (c : Dev nD) (hW : FiniteW m c) (t : Fin cfg0.N) (hf : (cfg0.win 5).flush t = true) :
    (dats m 0 c).flushed 5 t = ((cfg0.win 5).blk t).view.read (Elt Ideal) (keptArr m c) := by
  have h3 : t.val % 4 = 3 := (flush0_5 t).mp hf
  have h0 : ¬t.val % 4 = 0 := by omega
  refine (flushed5_C m c t h0 h3).trans ?_
  refine (congrArg ((cfg0.win 5).cut (grid0.coords t)) (kept_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h3) (iblk m c 0 t) (iblk m c 1 t) (iblk m c 2 t) (iblk m c 3 t) (iblk m c 4 t) ((outsAt0 m c (t.val - 1) (Nat.lt_of_le_of_lt (Nat.sub_le _ _) t.isLt)).2.2))).trans ?_
  funext y
  obtain ⟨hi0, hi1⟩ := place_kept t y
  have hp := potential_apply m c hW t h0 h3 y (((cfg0.win 5).blk t).view.emb y) hi0 hi1
  show Scalar.select (Ideal.cmp .olt (k0_pay3 (F := Ideal) (iblk m c 4 t) (iblk m c 2 t) (iblk m c 3 t)
        (k0_pay2 (F := Ideal) (iblk m c 0 t) (iblk m c 1 t) ((outsAt0 m c (t.val - 1) (Nat.lt_of_le_of_lt (Nat.sub_le _ _) t.isLt)).2.2)) y) thr) (k0_pay3 (F := Ideal) (iblk m c 4 t) (iblk m c 2 t) (iblk m c 3 t)
        (k0_pay2 (F := Ideal) (iblk m c 0 t) (iblk m c 1 t) ((outsAt0 m c (t.val - 1) (Nat.lt_of_le_of_lt (Nat.sub_le _ _) t.isLt)).2.2)) y) zero
    = Scalar.select (Ideal.cmp .olt (mem (aIn m c) (vOld m c) (sOld m c) (wts m c) (tauVec m c) (((cfg0.win 5).blk t).view.emb y)) thr) (mem (aIn m c) (vOld m c) (sOld m c) (wts m c) (tauVec m c) (((cfg0.win 5).blk t).view.emb y)) zero
  rw [hp]

/-- What a writing point writes back to the second result is its block of the spikes. -/
theorem flushed_spike (c : Dev nD) (hW : FiniteW m c) (t : Fin cfg0.N) (hf : (cfg0.win 6).flush t = true) :
    (dats m 0 c).flushed 6 t = ((cfg0.win 6).blk t).view.read (Elt Ideal) (spikeArr m c) := by
  have h3 : t.val % 4 = 3 := (flush0_6 t).mp hf
  have h0 : ¬t.val % 4 = 0 := by omega
  refine (flushed6_C m c t h0 h3).trans ?_
  refine (congrArg ((cfg0.win 6).cut (grid0.coords t)) (spike_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h3) (iblk m c 0 t) (iblk m c 1 t) (iblk m c 2 t) (iblk m c 3 t) (iblk m c 4 t) ((outsAt0 m c (t.val - 1) (Nat.lt_of_le_of_lt (Nat.sub_le _ _) t.isLt)).2.2))).trans ?_
  funext y
  obtain ⟨hi0, hi1⟩ := place_spike t y
  have hp := potential_apply m c hW t h0 h3 y (((cfg0.win 6).blk t).view.emb y) hi0 hi1
  show ((((Ideal.cmp .ogt (k0_pay3 (F := Ideal) (iblk m c 4 t) (iblk m c 2 t) (iblk m c 3 t)
        (k0_pay2 (F := Ideal) (iblk m c 0 t) (iblk m c 1 t) ((outsAt0 m c (t.val - 1) (Nat.lt_of_le_of_lt (Nat.sub_le _ _) t.isLt)).2.2)) y) thr).setWidth 32).toInt : ℝ) : EReal)
    = ((((Ideal.cmp .ogt (mem (aIn m c) (vOld m c) (sOld m c) (wts m c) (tauVec m c) (((cfg0.win 6).blk t).view.emb y)) thr).toNat : ℝ)) : EReal)
  rw [hp, bit_widened]

/-- Every entry of the array is in the block the last point of its column block's run writes back. -/
theorem cover5 (i : S1024x4096.Idx) :
    ∃ t : Fin cfg0.N, (cfg0.win 5).flush t = true ∧ i ∈ ((cfg0.win 5).blk t).view.set := by
  have hi0 : (i 0).val < 1024 := (i 0).isLt
  have hi1 : (i 1).val < 4096 := (i 1).isLt
  have hN : cfg0.N = 16 := N_0
  have ht : 4 * ((i 1).val / 1024) + 3 < cfg0.N := by rw [hN]; omega
  refine ⟨⟨4 * ((i 1).val / 1024) + 3, ht⟩, (flush0_5 _).mpr (by show (4 * ((i 1).val / 1024) + 3) % 4 = 3; omega), ?_⟩
  obtain ⟨-, -, -, -, -, -, -, -, -, -, e0, e1, -⟩ := idx_maps ⟨4 * ((i 1).val / 1024) + 3, ht⟩
  show i ∈ ((View.whole main_v1_0).slice (win0_5.rect ⟨4 * ((i 1).val / 1024) + 3, ht⟩)).set
  rw [View.set_slice_whole, Rect.mem_set_unit]
  intro a
  match a with
  | ⟨0, _⟩ =>
    show win0_5.index ⟨4 * ((i 1).val / 1024) + 3, ht⟩ (0 : Fin 2) * 1024 ≤ (i 0).val
      ∧ (i 0).val < win0_5.index ⟨4 * ((i 1).val / 1024) + 3, ht⟩ (0 : Fin 2) * 1024 + 1024
    rw [e0]; omega
  | ⟨1, _⟩ =>
    show win0_5.index ⟨4 * ((i 1).val / 1024) + 3, ht⟩ (1 : Fin 2) * 1024 ≤ (i 1).val
      ∧ (i 1).val < win0_5.index ⟨4 * ((i 1).val / 1024) + 3, ht⟩ (1 : Fin 2) * 1024 + 1024
    rw [e1]
    show (4 * ((i 1).val / 1024) + 3) / 4 * 1024 ≤ (i 1).val ∧ (i 1).val < (4 * ((i 1).val / 1024) + 3) / 4 * 1024 + 1024
    omega

/-- Every entry of the array is in the block the last point of its column block's run writes back. -/
theorem cover6 (i : S1024x4096.Idx) :
    ∃ t : Fin cfg0.N, (cfg0.win 6).flush t = true ∧ i ∈ ((cfg0.win 6).blk t).view.set := by
  have hi0 : (i 0).val < 1024 := (i 0).isLt
  have hi1 : (i 1).val < 4096 := (i 1).isLt
  have hN : cfg0.N = 16 := N_0
  have ht : 4 * ((i 1).val / 1024) + 3 < cfg0.N := by rw [hN]; omega
  refine ⟨⟨4 * ((i 1).val / 1024) + 3, ht⟩, (flush0_6 _).mpr (by show (4 * ((i 1).val / 1024) + 3) % 4 = 3; omega), ?_⟩
  obtain ⟨-, -, -, -, -, -, -, -, -, -, -, -, e0, e1⟩ := idx_maps ⟨4 * ((i 1).val / 1024) + 3, ht⟩
  show i ∈ ((View.whole main_v1_1).slice (win0_6.rect ⟨4 * ((i 1).val / 1024) + 3, ht⟩)).set
  rw [View.set_slice_whole, Rect.mem_set_unit]
  intro a
  match a with
  | ⟨0, _⟩ =>
    show win0_6.index ⟨4 * ((i 1).val / 1024) + 3, ht⟩ (0 : Fin 2) * 1024 ≤ (i 0).val
      ∧ (i 0).val < win0_6.index ⟨4 * ((i 1).val / 1024) + 3, ht⟩ (0 : Fin 2) * 1024 + 1024
    rw [e0]; omega
  | ⟨1, _⟩ =>
    show win0_6.index ⟨4 * ((i 1).val / 1024) + 3, ht⟩ (1 : Fin 2) * 1024 ≤ (i 1).val
      ∧ (i 1).val < win0_6.index ⟨4 * ((i 1).val / 1024) + 3, ht⟩ (1 : Fin 2) * 1024 + 1024
    rw [e1]
    show (4 * ((i 1).val / 1024) + 3) / 4 * 1024 ≤ (i 1).val ∧ (i 1).val < (4 * ((i 1).val / 1024) + 3) / 4 * 1024 + 1024
    omega

/-- So the first result array ends holding the kept potentials, -/
theorem final_kept (c : Dev nD) (hW : FiniteW m c) : (dats m 0 c).arrAt 5 cfg0.N = keptArr m c :=
  (dats m 0 c).arrAt_eq_of_cover 5 (keptArr m c) (fun t hf => flushed_kept m c hW t hf) cover5

/-- and the second the spikes. -/
theorem final_spike (c : Dev nD) (hW : FiniteW m c) : (dats m 0 c).arrAt 6 cfg0.N = spikeArr m c :=
  (dats m 0 c).arrAt_eq_of_cover 6 (spikeArr m c) (fun t hf => flushed_spike m c hW t hf) cover6

/-- The kernel's run, read: with finite weights, the two results are the specification's and the arguments are
    as launched. -/
theorem run (hW : ∀ c, FiniteW m c) : θ_run defs (onTc (τ := τ) (main (F := Ideal))) ⟨m, fun _ => 0, ρ⟩ fun r => ∀ c : Dev nD,
      r.2.mem ((c : Thread nD τ).loc main_v1_0) = keptArr m c
      ∧ r.2.mem ((c : Thread nD τ).loc main_v1_1) = spikeArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_kept m c (hW c)), (h c).2.1.trans (final_spike m c (hW c)), (h c).2.2⟩)
    (Value.run_blocks m ρ)

end Cert.KernelIdeal.RefValue

end
-- ==== Proof.lean ====
/-
  The certificate of a leaky-integrate-and-fire layer: a Pallas kernel that walks the 4096 output units in four
  blocks and, for each, the 4096 inputs in four blocks, accumulating the product of the input spikes with the
  weights in a scratch buffer and, at the last input block, computing from it the new membrane potential, the kept
  potential and the spike — against the plain formulas over whole arrays. On the extended reals the two agree
  where the weights are finite: the kernel multiplies the spikes once with W and once with W − W (what is left of
  a two-part narrow-format split of W once format changes are the identity), and W − W is zero exactly for finite
  W. The rest is that a sum over 4096 inputs is the sum of its four blocks, that the logistic function is its own
  spelling, and that "x − θ above zero" is "x above θ".

  The three frames are the generated frame proofs (the reference's is its generated run with the results
  dropped); the idealization's one rewrite is its rule's statement; the value claim sets the kernel's run (its
  two arrays as the specification, Proof/KernelValue.lean) beside the reference's (Proof/RefRead.lean).
-/
import proofs.«126963_j58437325030132_2_alg».proof.Defs
import proofs.«126963_j58437325030132_2_alg».proof.Proof.Gen.Kernel
import proofs.«126963_j58437325030132_2_alg».proof.Proof.Gen.Kernel.Skeleton
import proofs.«126963_j58437325030132_2_alg».proof.Proof.Gen.Kernel.Launch
import proofs.«126963_j58437325030132_2_alg».proof.Proof.Gen.Kernel.Points
import proofs.«126963_j58437325030132_2_alg».proof.Proof.Gen.Kernel.Frame
import proofs.«126963_j58437325030132_2_alg».proof.Proof.Gen.KernelIdeal
import proofs.«126963_j58437325030132_2_alg».proof.Proof.Gen.KernelIdeal.Skeleton
import proofs.«126963_j58437325030132_2_alg».proof.Proof.Gen.KernelIdeal.Launch
import proofs.«126963_j58437325030132_2_alg».proof.Proof.Gen.KernelIdeal.Points
import proofs.«126963_j58437325030132_2_alg».proof.Proof.Gen.KernelIdeal.Frame
import proofs.«126963_j58437325030132_2_alg».proof.Proof.Gen.ReferenceIdeal
import proofs.«126963_j58437325030132_2_alg».proof.Proof.Gen.Pre_finite_inputs
import proofs.«126963_j58437325030132_2_alg».proof.Proof.Gen.KernelIdeal.Value
import proofs.«126963_j58437325030132_2_alg».proof.Proof.Gen.ReferenceIdeal.Run
import proofs.«126963_j58437325030132_2_alg».proof.Proof.Gen.ReferenceIdeal.Read
import proofs.«126963_j58437325030132_2_alg».proof.Proof.Spec
import proofs.«126963_j58437325030132_2_alg».proof.Proof.Finite
import proofs.«126963_j58437325030132_2_alg».proof.Proof.RefRead
import proofs.«126963_j58437325030132_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The idealization's one rewrite: widening back a value narrowed to the sixteen-bit format is the identity on
    the extended reals. -/
theorem preserves : Cert.preserves_Kernel_KernelIdeal :=
  IdealRules.truncf_extf.statement Cert.KernelIdeal.S1024x1024 .f32 .bf16

/-- Under the precondition every weight the idealized kernel is launched with is a real number. -/
theorem finite_weights (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.KernelIdeal.Accum.FiniteW m c :=
  fun i => Cert.Lif.Finite.weights_real _ _ _ _ _ (hpre c) i

/-- Both idealized programs end with the kept potentials and the spikes of the specification, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.RefValue.keptArr m c, fun c => Cert.KernelIdeal.RefValue.spikeArr m c,
    Cert.KernelIdeal.RefValue.run m ρ (finite_weights m hpre), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v21_eq, Cert.ReferenceIdeal.RefValue.kept_eq,
      (hagree c).1, (hagree c).2.1, (hagree c).2.2.1, (hagree c).2.2.2.1, (hagree c).2.2.2.2]
  · rw [(h c).2.1, Cert.ReferenceIdeal.Read.val_main_v18_eq, Cert.ReferenceIdeal.RefValue.spike_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
